-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x256 .f32) (main_arg1 : IVec S2x800000 32) (main_arg2 : FVec F S256x256 .f32) (main_arg3 : FVec F S256 .f32) (main_arg4 : FVec F S256x128 .f32) (main_arg5 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_v13 main_v16
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x256 : Shape := ⟨2, ![5000, 256]⟩
abbrev S850000x256 : Shape := ⟨2, ![850000, 256]⟩
abbrev S1x256 : Shape := ⟨2, ![1, 256]⟩
abbrev S50000x128 : Shape := ⟨2, ![50000, 128]⟩
abbrev S5000x128 : Shape := ⟨2, ![5000, 128]⟩
abbrev S850000x128 : Shape := ⟨2, ![850000, 128]⟩
abbrev S1x128 : Shape := ⟨2, ![1, 128]⟩

abbrev nBuf : Space → Nat
  | .hbm => 135
  | .vmem => 10
  | .smem => 0
  | _ => 0

abbrev hbmTy0_0 (i : Nat) : BufTy := match i % 128 with
  | 0 => ⟨S50000x256, .f32⟩
  | 1 => ⟨S2x800000, .i32⟩
  | 2 => ⟨S256x256, .f32⟩
  | 3 => ⟨S256, .f32⟩
  | 4 => ⟨S256x128, .f32⟩
  | 5 => ⟨S128, .f32⟩
  | 6 => ⟨S50000, .i32⟩
  | 7 => ⟨S1x800000, .i32⟩
  | 8 => ⟨S800000, .i32⟩
  | 9 => ⟨S850000, .i32⟩
  | 10 => ⟨S1x800000, .i32⟩
  | 11 => ⟨S800000, .i32⟩
  | 12 => ⟨S850000, .i32⟩
  | 13 => ⟨S_, .f32⟩
  | 14 => ⟨S850000, .f32⟩
  | 15 => ⟨S_, .f32⟩
  | 16 => ⟨S50000, .f32⟩
  | 17 => ⟨S850000x1, .i32⟩
  | 18 => ⟨S50000, .f32⟩
  | 19 => ⟨S_, .f32⟩
  | 20 => ⟨S50000, .f32⟩
  | 21 => ⟨S50000, .i1⟩
  | 22 => ⟨S_, .f32⟩
  | 23 => ⟨S50000, .f32⟩
  | 24 => ⟨S50000, .f32⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S50000x256, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x256, .f32⟩
  | 59 => ⟨S850000x1, .f32⟩
  | 60 => ⟨S850000x256, .f32⟩
  | 61 => ⟨S850000x256, .f32⟩
  | 62 => ⟨S_, .f32⟩
  | 63 => ⟨S50000x256, .f32⟩
  | 64 => ⟨S850000x1, .i32⟩
  | 65 => ⟨S50000x256, .f32⟩
  | 66 => ⟨S1x256, .f32⟩
  | 67 => ⟨S50000x256, .f32⟩
  | 68 => ⟨S50000x256, .f32⟩
  | 69 => ⟨S_, .f32⟩
  | 70 => ⟨S50000x256, .f32⟩
  | 71 => ⟨S50000x256, .f32⟩
  | 72 => ⟨S50000, .i32⟩
  | 73 => ⟨S1x800000, .i32⟩
  | 74 => ⟨S800000, .i32⟩
  | 75 => ⟨S850000, .i32⟩
  | 76 => ⟨S1x800000, .i32⟩
  | 77 => ⟨S800000, .i32⟩
  | 78 => ⟨S850000, .i32⟩
  | 79 => ⟨S_, .f32⟩
  | 80 => ⟨S850000, .f32⟩
  | 81 => ⟨S_, .f32⟩
  | 82 => ⟨S50000, .f32⟩
  | 83 => ⟨S850000x1, .i32⟩
  | 84 => ⟨S50000, .f32⟩
  | 85 => ⟨S_, .f32⟩
  | 86 => ⟨S50000, .f32⟩
  | 87 => ⟨S50000, .i1⟩
  | 88 => ⟨S_, .f32⟩
  | 89 => ⟨S50000, .f32⟩
  | 90 => ⟨S50000, .f32⟩
  | 91 => ⟨S50000, .f32⟩
  | 92 => ⟨S_, .f32⟩
  | 93 => ⟨S_, .f32⟩
  | 94 => ⟨S50000, .f32⟩
  | 95 => ⟨S50000, .f32⟩
  | 96 => ⟨S_, .i32⟩
  | 97 => ⟨S850000, .i32⟩
  | 98 => ⟨S850000, .i1⟩
  | 99 => ⟨S_, .i32⟩
  | 100 => ⟨S850000, .i32⟩
  | 101 => ⟨S850000, .i32⟩
  | 102 => ⟨S850000, .i32⟩
  | 103 => ⟨S850000x1, .i32⟩
  | 104 => ⟨S850000, .f32⟩
  | 105 => ⟨S_, .i32⟩
  | 106 => ⟨S850000, .i32⟩
  | 107 => ⟨S850000, .i1⟩
  | 108 => ⟨S_, .i32⟩
  | 109 => ⟨S850000, .i32⟩
  | 110 => ⟨S850000, .i32⟩
  | 111 => ⟨S850000, .i32⟩
  | 112 => ⟨S850000x1, .i32⟩
  | 113 => ⟨S850000, .f32⟩
  | 114 => ⟨S850000, .f32⟩
  | 115 => ⟨S50000x128, .f32⟩
  | 116 => ⟨S_, .i32⟩
  | 117 => ⟨S850000, .i32⟩
  | 118 => ⟨S850000, .i1⟩
  | 119 => ⟨S_, .i32⟩
  | 120 => ⟨S850000, .i32⟩
  | 121 => ⟨S850000, .i32⟩
  | 122 => ⟨S850000, .i32⟩
  | 123 => ⟨S850000x1, .i32⟩
  | 124 => ⟨S850000x128, .f32⟩
  | 125 => ⟨S850000x1, .f32⟩
  | 126 => ⟨S850000x128, .f32⟩
  | 127 => ⟨S850000x128, .f32⟩
  | _ => ⟨S50000x256, .f32⟩

abbrev hbmTy0_1 (i : Nat) : BufTy := match i % 128 with
  | 0 => ⟨S_, .f32⟩
  | 1 => ⟨S50000x128, .f32⟩
  | 2 => ⟨S850000x1, .i32⟩
  | 3 => ⟨S50000x128, .f32⟩
  | 4 => ⟨S1x128, .f32⟩
  | 5 => ⟨S50000x128, .f32⟩
  | 6 => ⟨S50000x128, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S256x128, .f32⟩
  | .local _ .vmem, ⟨8, _⟩ => ⟨S5000x128, .f32⟩
  | .local _ .vmem, ⟨9, _⟩ => ⟨S5000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_cst_13 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_14 : Ref sig .tc := ⟨.hbm, 92, rfl⟩
abbrev main_call2_v0 : Ref sig .tc := ⟨.hbm, 93, rfl⟩
abbrev main_call2_v1 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_c_17 : Ref sig .tc := ⟨.hbm, 105, rfl⟩
abbrev main_v74 : Ref sig .tc := ⟨.hbm, 106, rfl⟩
abbrev main_v75 : Ref sig .tc := ⟨.hbm, 107, rfl⟩
abbrev main_c_18 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_c_19 : Ref sig .tc := ⟨.hbm, 116, rfl⟩
abbrev main_v83 : Ref sig .tc := ⟨.hbm, 117, rfl⟩
abbrev main_v84 : Ref sig .tc := ⟨.hbm, 118, rfl⟩
abbrev main_c_20 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_cst_21 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x256_S256x256_S5000x256_1_0_0_1_n_n_wf : DotDims.WF S5000x256 S256x256 S5000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x256_S256x128_S5000x128_1_0_0_1_n_n_wf : DotDims.WF S5000x256 S256x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v82) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S50000x128 : Shape := ⟨2, ![50000, 128]⟩
abbrev S850000x128 : Shape := ⟨2, ![850000, 128]⟩
abbrev S1x128 : Shape := ⟨2, ![1, 128]⟩

abbrev nBuf : Space → Nat
  | .hbm => 135
  | .vmem => 0
  | .smem => 0
  | _ => 0

abbrev hbmTy0_0 (i : Nat) : BufTy := match i % 128 with
  | 0 => ⟨S50000x256, .f32⟩
  | 1 => ⟨S2x800000, .i32⟩
  | 2 => ⟨S256x256, .f32⟩
  | 3 => ⟨S256, .f32⟩
  | 4 => ⟨S256x128, .f32⟩
  | 5 => ⟨S128, .f32⟩
  | 6 => ⟨S50000, .i32⟩
  | 7 => ⟨S1x800000, .i32⟩
  | 8 => ⟨S800000, .i32⟩
  | 9 => ⟨S850000, .i32⟩
  | 10 => ⟨S1x800000, .i32⟩
  | 11 => ⟨S800000, .i32⟩
  | 12 => ⟨S850000, .i32⟩
  | 13 => ⟨S_, .f32⟩
  | 14 => ⟨S850000, .f32⟩
  | 15 => ⟨S_, .f32⟩
  | 16 => ⟨S50000, .f32⟩
  | 17 => ⟨S850000x1, .i32⟩
  | 18 => ⟨S50000, .f32⟩
  | 19 => ⟨S_, .f32⟩
  | 20 => ⟨S50000, .f32⟩
  | 21 => ⟨S50000, .i1⟩
  | 22 => ⟨S_, .f32⟩
  | 23 => ⟨S50000, .f32⟩
  | 24 => ⟨S50000, .f32⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S50000x256, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x256, .f32⟩
  | 59 => ⟨S850000x1, .f32⟩
  | 60 => ⟨S850000x256, .f32⟩
  | 61 => ⟨S850000x256, .f32⟩
  | 62 => ⟨S_, .f32⟩
  | 63 => ⟨S50000x256, .f32⟩
  | 64 => ⟨S850000x1, .i32⟩
  | 65 => ⟨S50000x256, .f32⟩
  | 66 => ⟨S1x256, .f32⟩
  | 67 => ⟨S50000x256, .f32⟩
  | 68 => ⟨S50000x256, .f32⟩
  | 69 => ⟨S_, .f32⟩
  | 70 => ⟨S50000x256, .f32⟩
  | 71 => ⟨S50000x256, .f32⟩
  | 72 => ⟨S50000, .i32⟩
  | 73 => ⟨S1x800000, .i32⟩
  | 74 => ⟨S800000, .i32⟩
  | 75 => ⟨S850000, .i32⟩
  | 76 => ⟨S1x800000, .i32⟩
  | 77 => ⟨S800000, .i32⟩
  | 78 => ⟨S850000, .i32⟩
  | 79 => ⟨S_, .f32⟩
  | 80 => ⟨S850000, .f32⟩
  | 81 => ⟨S_, .f32⟩
  | 82 => ⟨S50000, .f32⟩
  | 83 => ⟨S850000x1, .i32⟩
  | 84 => ⟨S50000, .f32⟩
  | 85 => ⟨S_, .f32⟩
  | 86 => ⟨S50000, .f32⟩
  | 87 => ⟨S50000, .i1⟩
  | 88 => ⟨S_, .f32⟩
  | 89 => ⟨S50000, .f32⟩
  | 90 => ⟨S50000, .f32⟩
  | 91 => ⟨S50000, .f32⟩
  | 92 => ⟨S_, .f32⟩
  | 93 => ⟨S_, .f32⟩
  | 94 => ⟨S50000, .f32⟩
  | 95 => ⟨S50000, .f32⟩
  | 96 => ⟨S_, .i32⟩
  | 97 => ⟨S850000, .i32⟩
  | 98 => ⟨S850000, .i1⟩
  | 99 => ⟨S_, .i32⟩
  | 100 => ⟨S850000, .i32⟩
  | 101 => ⟨S850000, .i32⟩
  | 102 => ⟨S850000, .i32⟩
  | 103 => ⟨S850000x1, .i32⟩
  | 104 => ⟨S850000, .f32⟩
  | 105 => ⟨S_, .i32⟩
  | 106 => ⟨S850000, .i32⟩
  | 107 => ⟨S850000, .i1⟩
  | 108 => ⟨S_, .i32⟩
  | 109 => ⟨S850000, .i32⟩
  | 110 => ⟨S850000, .i32⟩
  | 111 => ⟨S850000, .i32⟩
  | 112 => ⟨S850000x1, .i32⟩
  | 113 => ⟨S850000, .f32⟩
  | 114 => ⟨S850000, .f32⟩
  | 115 => ⟨S50000x128, .f32⟩
  | 116 => ⟨S_, .i32⟩
  | 117 => ⟨S850000, .i32⟩
  | 118 => ⟨S850000, .i1⟩
  | 119 => ⟨S_, .i32⟩
  | 120 => ⟨S850000, .i32⟩
  | 121 => ⟨S850000, .i32⟩
  | 122 => ⟨S850000, .i32⟩
  | 123 => ⟨S850000x1, .i32⟩
  | 124 => ⟨S850000x128, .f32⟩
  | 125 => ⟨S850000x1, .f32⟩
  | 126 => ⟨S850000x128, .f32⟩
  | 127 => ⟨S850000x128, .f32⟩
  | _ => ⟨S50000x256, .f32⟩

abbrev hbmTy0_1 (i : Nat) : BufTy := match i % 128 with
  | 0 => ⟨S_, .f32⟩
  | 1 => ⟨S50000x128, .f32⟩
  | 2 => ⟨S850000x1, .i32⟩
  | 3 => ⟨S50000x128, .f32⟩
  | 4 => ⟨S1x128, .f32⟩
  | 5 => ⟨S50000x128, .f32⟩
  | 6 => ⟨S50000x128, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_cst_13 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_14 : Ref sig .tc := ⟨.hbm, 92, rfl⟩
abbrev main_call2_v0 : Ref sig .tc := ⟨.hbm, 93, rfl⟩
abbrev main_call2_v1 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_c_17 : Ref sig .tc := ⟨.hbm, 105, rfl⟩
abbrev main_v74 : Ref sig .tc := ⟨.hbm, 106, rfl⟩
abbrev main_v75 : Ref sig .tc := ⟨.hbm, 107, rfl⟩
abbrev main_c_18 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_c_19 : Ref sig .tc := ⟨.hbm, 116, rfl⟩
abbrev main_v83 : Ref sig .tc := ⟨.hbm, 117, rfl⟩
abbrev main_v84 : Ref sig .tc := ⟨.hbm, 118, rfl⟩
abbrev main_c_20 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_cst_21 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x256_S50000x256_1_0_0_1_n_n_wf : DotDims.WF S50000x256 S256x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.KernelRun.lean ====
/-
  The whole run of the kernel's program, with its result kept.

  The program is a line of host operations broken by two matrix-product regions. Its buffers at each boundary are a fold
  from the launch memory: a stretch of host operations rewrites the buffers it names, a region leaves its three arrays at
  what its write-backs made of them and every other buffer alone. Every weakly fair execution ends with each unscoped
  buffer at the end of that fold; read at the result buffer this names the result, and read at an argument it walks back
  to the launch memory.
-/
import proofs.«176146_j61692910240068_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the end of the
    fold of its segments from the launch memory and the six argument arrays as launched. -/
theorem run : θ_run defs (onTc (τ := τ) (main (F := F))) ⟨m, fun _ => 0, ρ⟩ (fun r => ∀ c : Dev nD,
      r.2.mem ((c.tc : Thread nD τ).loc main_v98) = W11 m ρ c (Proc.devRef .tc main_v98)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v98 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c)⟩)

end Cert.KernelIdeal.Whole

end
-- ==== Proof.LibPlainDot.lean ====
/-
  A plain matrix product read at an index, over the extended reals.

  For the dimension numbers of an `M×K` by `K×N` product (contract the left operand's axis 1 with the right operand's
  axis 0, no batch axis) the contraction index is one coordinate `k < K`, the left operand is read at `(p, k)` and the
  right one at `(k, q)`. So both a kernel's matmul into a zero accumulator and a host `dot_general` are, at `(p, q)`,
  the sum over `k : Fin K` of `lhs (p, k) * rhs (k, q)` — one and the same extended real, whatever the blocking.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The left operand's index of a plain product at output `(p, q)` and contraction position `k` is `(p, k)`. -/
theorem lhsIdx_plain (M K N : ℕ) (p : Fin M) (q : Fin N) (k : Fin K) :
    (DotDims.plain M K N).lhsIdx (ix2 p q) ((contrEquiv1 (DotDims.plain M K N) K rfl rfl).symm k) = ix2 p k := by
  funext a
  apply Fin.ext
  match a with
  | ⟨0, _⟩ => rfl
  | ⟨1, _⟩ => rfl

/-- The right operand's index of a plain product at output `(p, q)` and contraction position `k` is `(k, q)`. -/
theorem rhsIdx_plain (M K N : ℕ) (p : Fin M) (q : Fin N) (k : Fin K) :
    (DotDims.plain M K N).rhsIdx (ix2 p q) ((contrEquiv1 (DotDims.plain M K N) K rfl rfl).symm k) = ix2 k q := by
  funext a
  apply Fin.ext
  match a with
  | ⟨0, _⟩ => rfl
  | ⟨1, _⟩ => rfl

/-- The contraction sum of a plain product, re-indexed by the one contracted coordinate. -/
theorem sum_plain (M K N : ℕ) (a : (⟨2, ![M, K]⟩ : Shape).Idx → EReal) (w : (⟨2, ![K, N]⟩ : Shape).Idx → EReal)
    (p : Fin M) (q : Fin N) :
    ∑ k : (DotDims.plain M K N).contr.Idx,
        a ((DotDims.plain M K N).lhsIdx (ix2 p q) k) * w ((DotDims.plain M K N).rhsIdx (ix2 p q) k)
      = ∑ k : Fin K, a (ix2 p k) * w (ix2 k q) := by
  rw [← Equiv.sum_comp (contrEquiv1 (DotDims.plain M K N) K rfl rfl).symm]
  exact Finset.sum_congr rfl fun k _ => by rw [lhsIdx_plain, rhsIdx_plain]

/-- A kernel's matmul into the zero accumulator, with plain dimension numbers, read at `(p, q)`. -/
theorem matmul_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  rw [Ideal.matmul_constant_zero_apply]
  exact sum_plain M K N lhs rhs p q

/-- A host `dot_general` with plain dimension numbers read at `(p, q)`. -/
theorem dotGeneral_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  rw [Ideal.dotGeneral_apply]
  exact sum_plain M K N lhs rhs p q

end Idealize.ShloMosaic.PlainDot

end
-- ==== Proof.LibMatProd.lean ====
/-
  The matrix product as one function of two arrays, over the extended reals.

  `matProd a w` at `(p, q)` is the sum over `k` of `a (p, k) * w (k, q)`. Addition of extended reals is commutative
  and associative, so the sum needs no order and no blocking: a product computed row block by row block and a product
  computed at once are the same array. Both a kernel's matmul into the zero accumulator and a host `dot_general`, with
  the plain dimension numbers, are this function; and a change of float format on the way in is the identity.
-/
import Idealize.ShloMosaic.PureOps.Ideal
import Idealize.ShloMosaic.PureOps.Ideal.Laws
import Idealize.ShloMosaic.Lib.ValueIdx
import proofs.«176146_j61692910240068_1_alg».proof.Proof.LibPlainDot

noncomputable section

namespace Idealize.ShloMosaic.MatProd

open Idealize.ShloMosaic Idealize.ShloMosaic.ValueIdx

/-- The product of an `M×K` array with a `K×N` array, entry by entry. -/
def matProd {M K N : ℕ} {φ₁ φ₂ : FTy} (a : FVec Ideal ⟨2, ![M, K]⟩ φ₁) (w : FVec Ideal ⟨2, ![K, N]⟩ φ₂) :
    FVec Ideal ⟨2, ![M, N]⟩ .f32 :=
  fun i => ∑ k : Fin K, a (ix2 (i 0) k) * w (ix2 k (i 1))

/-- A kernel's matmul into the zero accumulator, read at the entry `(p, q)`. -/
theorem matmul_zero_at {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂)
    (y : (⟨2, ![M, N]⟩ : Shape).Idx) (p : Fin M) (q : Fin N) (hy : y = ix2 p q) :
    FloatOps.matmul d prec lhs rhs (constant ⟨2, ![M, N]⟩ .f32 0x00000000#32) y
      = ∑ k : Fin K, lhs (ix2 p k) * rhs (ix2 k q) := by
  subst hy
  exact PlainDot.matmul_zero_apply d hd prec lhs rhs p q

/-- A host `dot_general` with the plain dimension numbers is the matrix product. -/
theorem dotGeneral_eq_matProd {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) :
    FloatOps.dotGeneral d prec sched lhs rhs = matProd lhs rhs := by
  funext j
  obtain ⟨p, q, rfl⟩ : ∃ (p : Fin M) (q : Fin N), j = ix2 p q := ⟨j 0, j 1, eq_ix2 j⟩
  exact PlainDot.dotGeneral_apply d hd prec sched lhs rhs p q

/-- Narrowing both operands' float format first changes nothing: at the ideal values a format change is the identity. -/
theorem matProd_truncf {M K N : ℕ} {φ₁ φ₂ ψ₁ ψ₂ : FTy} (a : FVec Ideal ⟨2, ![M, K]⟩ φ₁) (w : FVec Ideal ⟨2, ![K, N]⟩ φ₂)
    (h₁ : ψ₁.bits < φ₁.bits) (h₂ : ψ₂.bits < φ₂.bits) :
    matProd (truncf ψ₁ a h₁) (truncf ψ₂ w h₂) = matProd a w := rfl

end Idealize.ShloMosaic.MatProd

end
-- ==== Proof.Region0Value.lean ====
/-
  What region 0 leaves in its output array.

  The region's grid has ten points. Point t stages rows 5000·t … 5000·t + 4999 of the left array (all 256 columns),
  the whole right array, and writes back rows 5000·t … 5000·t + 4999 of the output (all 256 columns). The body narrows
  both blocks to bf16 — the identity on extended reals — and multiplies them into a zero accumulator, so entry (p, q) of
  the block it stores is the sum over k of left (5000·t + p, k) · right (k, q): row 5000·t + p of the product of the two
  whole arrays. The ten row blocks tile the 50000 rows, so after the region the output array is the matrix product of
  the two input arrays as the region found them, whatever those are.
-/
import proofs.«176146_j61692910240068_1_alg».proof.Proof.Gen.KernelIdeal.Frame
import proofs.«176146_j61692910240068_1_alg».proof.Proof.LibMatProd
import Idealize.ShloMosaic.Lib.Pipeline.Value
import Idealize.ShloMosaic.Lib.ValueIdx

set_option maxRecDepth 16384

noncomputable section

namespace Cert.KernelIdeal.Region0

open Cert.KernelIdeal Cert.KernelIdeal.Gen
open Idealize.ShloMosaic Idealize.ShloMosaic.TcCoe Idealize.ShloMosaic.ValueIdx Idealize.ShloMosaic.MatProd
open Idealize.SL.Sem
open Idealize.ShloMosaic.Pipeline (Dat)

theorem zero_offsets : (![0, 0] : Fin 2 → Nat) = fun _ => 0 := funext fun a => by fin_cases a <;> rfl

/-- The body's dimension numbers are those of a plain 5000×256 by 256×256 product. -/
theorem dims_plain : dot_S5000x256_S256x256_S5000x256_1_0_0_1_n_n = DotDims.plain 5000 256 256 := rfl

/-- The value the body stores, entry by entry: the row of the left block against the column of the right block. -/
theorem stored_at (x0 : Vec Ideal S5000x256 .f32) (x1 : Vec Ideal S256x256 .f32) (p : Fin 5000) (q : Fin 256) :
    k0_pay1 (F := Ideal) x0 x1 (ix2 p q) = ∑ k : Fin 256, x0 (ix2 p k) * x1 (ix2 k q) := by
  unfold k0_pay1
  exact matmul_zero_at dot_S5000x256_S256x256_S5000x256_1_0_0_1_n_n dims_plain none _ _ _ p q rfl

/-- The windows' block indices over the grid: the left and output windows move down the rows with the point, the right
    window stays, and no window moves along the columns. -/
theorem block_indices : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

variable (V : (c : Dev nD) → (b : Ref sig .tc) → Buf (Elt Ideal) ((c : Thread nD τ).loc b))

/-- What point t writes back is block t of the product of the two input arrays. -/
theorem written_back (c : Dev nD) (t : Fin cfg0.N) :
    (dat0 (F := Ideal) V c).flushed 2 t
      = ((cfg0.win 2).blk t).view.read (Elt Ideal) (matProd (φ₁ := .f32) (φ₂ := .f32) (V c main_arg0) (V c main_arg2)) := by
  show (cfg0.win 2).cut (grid0.coords t) ((dat0 (F := Ideal) V c).after 2 t) = _
  rw [after0_2]
  unfold out0_2
  rw [View.canon_unit_zero zero_offsets]
  simp only [View.ld_unit_zero (S := S5000x256) zero_offsets, View.ld_unit_zero (S := S256x256) zero_offsets]
  obtain ⟨e0, e1, e2, e3, e4, e5⟩ := block_indices t
  funext j
  obtain ⟨p, q, rfl⟩ : ∃ (p : Fin 5000) (q : Fin 256), j = ix2 p q := ⟨j 0, j 1, eq_ix2 j⟩
  show k0_pay1 (F := Ideal) (iblk0 V c 0 t) (iblk0 V c 1 t) (ix2 p q)
    = matProd (φ₁ := .f32) (φ₂ := .f32) (V c main_arg0) (V c main_arg2) (((cfg0.win 2).blk t).view.emb (ix2 p q))
  rw [stored_at]
  refine Finset.sum_congr rfl fun k _ => ?_
  have hl : ((cfg0.win 0).blk t).view.emb (ix2 p k)
      = ix2 ((((cfg0.win 2).blk t).view.emb (ix2 p q)) 0) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 256 + 1 * k.val = k.val; omega
  have hr : ((cfg0.win 1).blk t).view.emb (ix2 k q)
      = ix2 k ((((cfg0.win 2).blk t).view.emb (ix2 p q)) 1) := by
    funext a; apply Fin.ext
    match a with
    | ⟨0, _⟩ => show win0_1.index t (0 : Fin 2) * 256 + 1 * k.val = k.val; omega
    | ⟨1, _⟩ => show win0_1.index t (1 : Fin 2) * 256 + 1 * q.val = win0_2.index t (1 : Fin 2) * 256 + 1 * q.val; omega
  exact congrArg₂ (fun x y : EReal => x * y) (congrArg (V c main_arg0) hl) (congrArg (V c main_arg2) hr)

/-- An index of the output array is in point t's block iff each coordinate is in the block's range on its axis. -/
theorem mem_block (t : Fin cfg0.N) (i : S50000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v32).slice (win0_2.rect t)).set ↔ _
  rw [View.set_slice_whole, Rect.mem_set_unit]
  exact Iff.rfl

/-- The ten row blocks cover the output array: row r is in the block of point r / 5000. -/
theorem covered (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 10 := N_0
  refine ⟨⟨(i 0).val / 5000, by rw [hN]; omega⟩, flush0_2 _, ?_⟩
  obtain ⟨-, -, -, -, e4, e5⟩ := block_indices ⟨(i 0).val / 5000, by rw [hN]; omega⟩
  rw [mem_block]
  intro a
  match a with
  | ⟨0, _⟩ =>
    show win0_2.index _ (0 : Fin 2) * 5000 ≤ (i 0).val ∧ (i 0).val < win0_2.index _ (0 : Fin 2) * 5000 + 5000
    rw [e4]; show (i 0).val / 5000 * 5000 ≤ (i 0).val ∧ (i 0).val < (i 0).val / 5000 * 5000 + 5000; omega
  | ⟨1, _⟩ =>
    show win0_2.index _ (1 : Fin 2) * 256 ≤ (i 1).val ∧ (i 1).val < win0_2.index _ (1 : Fin 2) * 256 + 256
    rw [e5]; omega

/-- After the region its output array is the matrix product of its two input arrays as the region found them. -/
theorem output (c : Dev nD) :
    (dat0 (F := Ideal) V c).arrAt 2 cfg0.N = matProd (φ₁ := .f32) (φ₂ := .f32) (V c main_arg0) (V c main_arg2) :=
  (dat0 (F := Ideal) V c).arrAt_eq_of_cover 2 _ (fun t _ => written_back V c t) covered

end Cert.KernelIdeal.Region0

end
-- ==== Proof.Region1Value.lean ====
/-
  What region 1 leaves in its output array.

  The region's grid has ten points. Point t stages rows 5000·t … 5000·t + 4999 of the left array (all 256 columns),
  the whole right array, and writes back rows 5000·t … 5000·t + 4999 of the output (all 128 columns). The body narrows
  both blocks to bf16 — the identity on extended reals — and multiplies them into a zero accumulator, so entry (p, q) of
  the block it stores is the sum over k of left (5000·t + p, k) · right (k, q): row 5000·t + p of the product of the two
  whole arrays. The ten row blocks tile the 50000 rows, so after the region the output array is the matrix product of
  the two input arrays as the region found them, whatever those are.
-/
import proofs.«176146_j61692910240068_1_alg».proof.Proof.Gen.KernelIdeal.Frame
import proofs.«176146_j61692910240068_1_alg».proof.Proof.LibMatProd
import Idealize.ShloMosaic.Lib.Pipeline.Value
import Idealize.ShloMosaic.Lib.ValueIdx

set_option maxRecDepth 16384

noncomputable section

namespace Cert.KernelIdeal.Region1

open Cert.KernelIdeal Cert.KernelIdeal.Gen
open Idealize.ShloMosaic Idealize.ShloMosaic.TcCoe Idealize.ShloMosaic.ValueIdx Idealize.ShloMosaic.MatProd
open Idealize.SL.Sem
open Idealize.ShloMosaic.Pipeline (Dat)

theorem zero_offsets : (![0, 0] : Fin 2 → Nat) = fun _ => 0 := funext fun a => by fin_cases a <;> rfl

/-- The body's dimension numbers are those of a plain 5000×256 by 256×128 product. -/
theorem dims_plain : dot_S5000x256_S256x128_S5000x128_1_0_0_1_n_n = DotDims.plain 5000 256 128 := rfl

/-- The value the body stores, entry by entry: the row of the left block against the column of the right block. -/
theorem stored_at (x0 : Vec Ideal S5000x256 .f32) (x1 : Vec Ideal S256x128 .f32) (p : Fin 5000) (q : Fin 128) :
    k1_pay1 (F := Ideal) x0 x1 (ix2 p q) = ∑ k : Fin 256, x0 (ix2 p k) * x1 (ix2 k q) := by
  unfold k1_pay1
  rw [shapeCast_self]
  exact matmul_zero_at dot_S5000x256_S256x128_S5000x128_1_0_0_1_n_n dims_plain none _ _ _ p q rfl

/-- The windows' block indices over the grid: the left and output windows move down the rows with the point, the right
    window stays, and no window moves along the columns. -/
theorem block_indices : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

variable (V : (c : Dev nD) → (b : Ref sig .tc) → Buf (Elt Ideal) ((c : Thread nD τ).loc b))

/-- What point t writes back is block t of the product of the two input arrays. -/
theorem written_back (c : Dev nD) (t : Fin cfg1.N) :
    (dat1 (F := Ideal) V c).flushed 2 t
      = ((cfg1.win 2).blk t).view.read (Elt Ideal) (matProd (φ₁ := .f32) (φ₂ := .f32) (V c main_v49) (V c main_arg4)) := by
  show (cfg1.win 2).cut (grid1.coords t) ((dat1 (F := Ideal) V c).after 2 t) = _
  rw [after1_2]
  unfold out1_2
  rw [View.canon_unit_zero zero_offsets]
  simp only [View.ld_unit_zero (S := S5000x256) zero_offsets, View.ld_unit_zero (S := S256x128) zero_offsets]
  obtain ⟨e0, e1, e2, e3, e4, e5⟩ := block_indices t
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (ix2 p q)
    = matProd (φ₁ := .f32) (φ₂ := .f32) (V c main_v49) (V c main_arg4) (((cfg1.win 2).blk t).view.emb (ix2 p q))
  rw [stored_at]
  refine Finset.sum_congr rfl fun k _ => ?_
  have hl : ((cfg1.win 0).blk t).view.emb (ix2 p k)
      = ix2 ((((cfg1.win 2).blk t).view.emb (ix2 p q)) 0) k := by
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 256 + 1 * k.val = k.val; omega
  have hr : ((cfg1.win 1).blk t).view.emb (ix2 k q)
      = ix2 k ((((cfg1.win 2).blk t).view.emb (ix2 p q)) 1) := by
    funext a; apply Fin.ext
    match a with
    | ⟨0, _⟩ => show win1_1.index t (0 : Fin 2) * 256 + 1 * k.val = k.val; omega
    | ⟨1, _⟩ => show win1_1.index t (1 : Fin 2) * 128 + 1 * q.val = win1_2.index t (1 : Fin 2) * 128 + 1 * q.val; omega
  exact congrArg₂ (fun x y : EReal => x * y) (congrArg (V c main_v49) hl) (congrArg (V c main_arg4) hr)

/-- An index of the output array is in point t's block iff each coordinate is in the block's range on its axis. -/
theorem mem_block (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v82).slice (win1_2.rect t)).set ↔ _
  rw [View.set_slice_whole, Rect.mem_set_unit]
  exact Iff.rfl

/-- The ten row blocks cover the output array: row r is in the block of point r / 5000. -/
theorem covered (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := N_1
  refine ⟨⟨(i 0).val / 5000, by rw [hN]; omega⟩, flush1_2 _, ?_⟩
  obtain ⟨-, -, -, -, e4, e5⟩ := block_indices ⟨(i 0).val / 5000, by rw [hN]; omega⟩
  rw [mem_block]
  intro a
  match a with
  | ⟨0, _⟩ =>
    show win1_2.index _ (0 : Fin 2) * 5000 ≤ (i 0).val ∧ (i 0).val < win1_2.index _ (0 : Fin 2) * 5000 + 5000
    rw [e4]; show (i 0).val / 5000 * 5000 ≤ (i 0).val ∧ (i 0).val < (i 0).val / 5000 * 5000 + 5000; omega
  | ⟨1, _⟩ =>
    show win1_2.index _ (1 : Fin 2) * 128 ≤ (i 1).val ∧ (i 1).val < win1_2.index _ (1 : Fin 2) * 128 + 128
    rw [e5]; omega

/-- After the region its output array is the matrix product of its two input arrays as the region found them. -/
theorem output (c : Dev nD) :
    (dat1 (F := Ideal) V c).arrAt 2 cfg1.N = matProd (φ₁ := .f32) (φ₂ := .f32) (V c main_v49) (V c main_arg4) :=
  (dat1 (F := Ideal) V c).arrAt_eq_of_cover 2 _ (fun t _ => written_back V c t) covered

end Cert.KernelIdeal.Region1

end
-- ==== Proof.KernelFold.lean ====
/-
  The kernel's program as one line of host operations, over the extended reals.

  A region of this program multiplies two arrays: its output array ends as their matrix product, its two input arrays
  and every other buffer stay as they were. A host `dot_general` with the plain dimension numbers does exactly that to the
  buffers: it writes the matrix product of its two operands into its result buffer and leaves the rest. So, as far as the
  buffer contents go, each region is one `dot_general` operation, and the fold of the program's segments from the launch
  memory is the fold of a single line of host operations: the stretches of the program with `%32 = dot_general %arg0, %arg2`
  and `%82 = dot_general %49, %arg4` where the two regions stand.
-/
import proofs.«176146_j61692910240068_1_alg».proof.Proof.Gen.KernelIdeal.Frame
import proofs.«176146_j61692910240068_1_alg».proof.Proof.LibMatProd
import proofs.«176146_j61692910240068_1_alg».proof.Proof.Region0Value
import proofs.«176146_j61692910240068_1_alg».proof.Proof.Region1Value
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.ShloMosaic.MatProd Idealize.ShloMosaic.StableHlo
open Idealize.SL.Sem

/-- The host operation region 0 stands for: `%32 = dot_general %arg0, %arg2`, contracting axis 1 with axis 0. -/
abbrev dot0 : HloOp τ sig (Elt Ideal) :=
  binary main_arg0 main_arg2 main_v32 ((fun l r => Host.dotGeneral (F := Ideal) (φ₁ := .f32) (φ₂ := .f32) (DotDims.plain 50000 256 256) none l r) : (⟨S50000x256, .f32⟩ : BufTy).Contents (Elt Ideal) → (⟨S256x256, .f32⟩ : BufTy).Contents (Elt Ideal) → (⟨S50000x256, .f32⟩ : BufTy).Contents (Elt Ideal))

/-- The host operation region 1 stands for: `%82 = dot_general %49, %arg4`. -/
abbrev dot1 : HloOp τ sig (Elt Ideal) :=
  binary main_v49 main_arg4 main_v82 ((fun l r => Host.dotGeneral (F := Ideal) (φ₁ := .f32) (φ₂ := .f32) (DotDims.plain 50000 256 128) none l r) : (⟨S50000x256, .f32⟩ : BufTy).Contents (Elt Ideal) → (⟨S256x128, .f32⟩ : BufTy).Contents (Elt Ideal) → (⟨S50000x128, .f32⟩ : BufTy).Contents (Elt Ideal))

variable (m : (ℓ : Loc nD τ sig) → Buf (Elt Ideal) ℓ) (ρ : Dev nD → PrngReg)

/-! ## Region 0 -/

theorem exit0_left (c : Dev nD) : W4 m ρ c (Proc.devRef .tc main_arg0) = W3 m ρ c (Proc.devRef .tc main_arg0) :=
  (W4_arr m ρ c 0).trans (((dat0 (V3 m ρ) c).arrAt_in 0 rfl _).trans (A_eq0 (V3 m ρ) c 0))

theorem exit0_right (c : Dev nD) : W4 m ρ c (Proc.devRef .tc main_arg2) = W3 m ρ c (Proc.devRef .tc main_arg2) :=
  (W4_arr m ρ c 1).trans (((dat0 (V3 m ρ) c).arrAt_in 1 rfl _).trans (A_eq0 (V3 m ρ) c 1))

theorem exit0_out (c : Dev nD) : W4 m ρ c (Proc.devRef .tc main_v32)
    = matProd (φ₁ := .f32) (φ₂ := .f32) (W3 m ρ c (Proc.devRef .tc main_arg0)) (W3 m ρ c (Proc.devRef .tc main_arg2)) :=
  (W4_arr m ρ c 2).trans (Region0.output (V3 m ρ) c)

/-- The buffers at region 0's exit are the buffers at its entry after `%32 = dot_general %arg0, %arg2`. -/
theorem exit0 (c : Dev nD) : W4 m ρ c = dot0.result (W3 m ρ c) := by
  funext b
  by_cases h2 : b = Proc.devRef .tc main_v32
  · subst h2
    rw [exit0_out, binary_result]
    exact (dotGeneral_eq_matProd (DotDims.plain 50000 256 256) rfl none .single _ _).symm
  · rw [HloOp.result_of_not_mem _ _ (by rw [binary_writes, Finset.mem_singleton]; exact h2)]
    by_cases h0 : b = Proc.devRef .tc main_arg0
    · subst h0; exact exit0_left m ρ c
    by_cases h1 : b = Proc.devRef .tc main_arg2
    · subst h1; exact exit0_right m ρ c
    unfold W4 Pipeline.withArrays
    rw [dif_neg]
    rintro ⟨w, e⟩
    match w, e with
    | ⟨0, _⟩, e => exact h0 e.symm
    | ⟨1, _⟩, e => exact h1 e.symm
    | ⟨2, _⟩, e => exact h2 e.symm

/-! ## Region 1 -/

theorem exit1_left (c : Dev nD) : W10 m ρ c (Proc.devRef .tc main_v49) = W9 m ρ c (Proc.devRef .tc main_v49) :=
  (W10_arr m ρ c 0).trans (((dat1 (V9 m ρ) c).arrAt_in 0 rfl _).trans (A_eq1 (V9 m ρ) c 0))

theorem exit1_right (c : Dev nD) : W10 m ρ c (Proc.devRef .tc main_arg4) = W9 m ρ c (Proc.devRef .tc main_arg4) :=
  (W10_arr m ρ c 1).trans (((dat1 (V9 m ρ) c).arrAt_in 1 rfl _).trans (A_eq1 (V9 m ρ) c 1))

theorem exit1_out (c : Dev nD) : W10 m ρ c (Proc.devRef .tc main_v82)
    = matProd (φ₁ := .f32) (φ₂ := .f32) (W9 m ρ c (Proc.devRef .tc main_v49)) (W9 m ρ c (Proc.devRef .tc main_arg4)) :=
  (W10_arr m ρ c 2).trans (Region1.output (V9 m ρ) c)

/-- The buffers at region 1's exit are the buffers at its entry after `%82 = dot_general %49, %arg4`. -/
theorem exit1 (c : Dev nD) : W10 m ρ c = dot1.result (W9 m ρ c) := by
  funext b
  by_cases h2 : b = Proc.devRef .tc main_v82
  · subst h2
    rw [exit1_out, binary_result]
    exact (dotGeneral_eq_matProd (DotDims.plain 50000 256 128) rfl none .single _ _).symm
  · rw [HloOp.result_of_not_mem _ _ (by rw [binary_writes, Finset.mem_singleton]; exact h2)]
    by_cases h0 : b = Proc.devRef .tc main_v49
    · subst h0; exact exit1_left m ρ c
    by_cases h1 : b = Proc.devRef .tc main_arg4
    · subst h1; exact exit1_right m ρ c
    unfold W10 Pipeline.withArrays
    rw [dif_neg]
    rintro ⟨w, e⟩
    match w, e with
    | ⟨0, _⟩, e => exact h0 e.symm
    | ⟨1, _⟩, e => exact h1 e.symm
    | ⟨2, _⟩, e => exact h2 e.symm

/-! ## The whole fold -/

/-- The buffers after the program's last segment: the launch contents taken through the program's stretches of host
    operations in order, with one `dot_general` where each region stands. -/
theorem folded (c : Dev nD) : W11 m ρ c
    = after hostOps2 (dot1.result (after hostOps1_4 (after hostOps1_3 (after hostOps1_2 (after hostOps1_1 (after hostOps1
        (dot0.result (after hostOps0_2 (after hostOps0_1 (after hostOps0 (W0 m ρ c))))))))))) := by
  show after hostOps2 (W10 m ρ c) = _
  rw [exit1]
  show after hostOps2 (dot1.result (after hostOps1_4 (after hostOps1_3 (after hostOps1_2 (after hostOps1_1 (after hostOps1 (W4 m ρ c))))))) = _
  rw [exit0]

end Cert.KernelIdeal.Fold

end
-- ==== Proof.LibJoinedPair.lean ====
/-
  Two arrays joined along an axis, with the pieces as plain arguments.

  `concatenate` takes its pieces as a list of (shape, array) pairs. A rewriting pass does not look inside such a pair
  (the array's type depends on the shape beside it), so what the pieces are stays unread. `joined` is the same array with
  the two pieces as ordinary arguments; `joined_eq` turns the one into the other (by definition), after which the pieces
  are rewritten like any other operand. `read_fold` is the library's one-pass reading of a fold of host operations with
  that equation added; `read_fold_casts` takes further rules.
-/
import Idealize.ShloMosaic.Lib.StableHlo.Run

noncomputable section

namespace Idealize.ShloMosaic.JoinedPair

open Idealize.ShloMosaic

/-- Two pieces joined along axis `d`. -/
def joined {α : Type} (S : Shape) (d : Fin S.rank) (S1 S2 : Shape) (h : Shape.Concatenates [S1, S2] S d) (a : S1.Idx → α) (b : S2.Idx → α) :
    S.Idx → α :=
  concatenate S d [⟨S1, a⟩, ⟨S2, b⟩] h

/-- A two-piece `concatenate` is `joined` of its pieces. -/
theorem joined_eq {α : Type} (S : Shape) (d : Fin S.rank) (S1 S2 : Shape) (h : Shape.Concatenates [S1, S2] S d) (a : S1.Idx → α) (b : S2.Idx → α) :
    concatenate S d [⟨S1, a⟩, ⟨S2, b⟩] h = joined S d S1 S2 h a b := rfl

end Idealize.ShloMosaic.JoinedPair

/-- What one buffer holds after a literal list of host operations, as the operations' functions of what the buffers held
    before: each operation's result at its own buffer is its function's value, at any other buffer what was there; the
    pieces of a two-piece concatenation are read too. -/
macro "read_fold" : tactic =>
  `(tactic| (simp (disch := decide) only [Idealize.ShloMosaic.JoinedPair.joined_eq,
      Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Idealize.ShloMosaic.StableHlo.nary4_result', Idealize.ShloMosaic.StableHlo.nary_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne']))

/-- The same reading with more rewrite rules added: the rules that make a typed reference's transport of contents (the
    identity, at a literal buffer of the stated type) disappear, stated with `↓` so that each is removed before its argument
    is read, while that argument is still a small term. -/
macro "read_fold_casts" "[" ls:Lean.Parser.Tactic.simpLemma,* "]" : tactic =>
  `(tactic| (simp (disch := decide) only [Idealize.ShloMosaic.JoinedPair.joined_eq,
      Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Idealize.ShloMosaic.StableHlo.nary4_result', Idealize.ShloMosaic.StableHlo.nary_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne', $ls,*]))

end
-- ==== Proof.RefArgs.lean ====
/-
  No operation of the reference writes an argument buffer, so after all of them each argument holds what it held.
-/
import proofs.«176146_j61692910240068_1_alg».proof.Proof.RefRunP
import proofs.«176146_j61692910240068_1_alg».proof.Proof.LibJoinedPair

set_option maxRecDepth 16384

noncomputable section

namespace Cert.ReferenceIdeal.Args

open Cert.ReferenceIdeal Cert.ReferenceIdeal.ValueP Idealize.ShloMosaic Idealize.ShloMosaic.StableHlo

variable {F : FTy → Type} [FloatOps F] (V : Valuation τ sig (Elt F))

set_option maxHeartbeats 4000000 in
theorem kept0 : after (ops (F := F)) V (Proc.devRef .tc main_arg0) = V (Proc.devRef .tc main_arg0) := by
  read_fold

set_option maxHeartbeats 4000000 in
theorem kept1 : after (ops (F := F)) V (Proc.devRef .tc main_arg1) = V (Proc.devRef .tc main_arg1) := by
  read_fold

set_option maxHeartbeats 4000000 in
theorem kept2 : after (ops (F := F)) V (Proc.devRef .tc main_arg2) = V (Proc.devRef .tc main_arg2) := by
  read_fold

set_option maxHeartbeats 4000000 in
theorem kept3 : after (ops (F := F)) V (Proc.devRef .tc main_arg3) = V (Proc.devRef .tc main_arg3) := by
  read_fold

set_option maxHeartbeats 4000000 in
theorem kept4 : after (ops (F := F)) V (Proc.devRef .tc main_arg4) = V (Proc.devRef .tc main_arg4) := by
  read_fold

set_option maxHeartbeats 4000000 in
theorem kept5 : after (ops (F := F)) V (Proc.devRef .tc main_arg5) = V (Proc.devRef .tc main_arg5) := by
  read_fold

end Cert.ReferenceIdeal.Args

end
-- ==== Proof.Bridge.lean ====
/-
  The two programs compute one function of the arguments.

  Read at the result buffer, the reference's line of host operations and the kernel's folded line (its stretches of host
  operations with a `dot_general` where each region stands) are the same operations applied in the same order to the
  same operands: the degrees and their inverse square roots, the gathered and scaled rows, the scattered sums, the bias,
  the rectifier, and again for the second layer. The only places the programs differ are the two matrix products, and
  there both lines now hold a `dot_general` with the same dimension numbers. So from argument arrays that agree the two
  results are one term.
-/
import proofs.«176146_j61692910240068_1_alg».proof.Proof.KernelFold
import proofs.«176146_j61692910240068_1_alg».proof.Proof.RefRunP
import proofs.«176146_j61692910240068_1_alg».proof.Proof.LibJoinedPair

set_option maxRecDepth 65536

noncomputable section

namespace Cert.Bridge

open Idealize.ShloMosaic Idealize.ShloMosaic.StableHlo

set_option maxHeartbeats 40000000 in
/-- From buffer contents that agree on the six arguments, the reference's operations and the kernel's folded line leave
    the same array in the result buffer. -/
theorem same_result (V' : Valuation Cert.ReferenceIdeal.τ Cert.ReferenceIdeal.sig (Elt Ideal)) (V : Valuation Cert.KernelIdeal.τ Cert.KernelIdeal.sig (Elt Ideal))
    (h0 : V' (Proc.devRef .tc Cert.ReferenceIdeal.main_arg0) = V (Proc.devRef .tc Cert.KernelIdeal.main_arg0))
    (h1 : V' (Proc.devRef .tc Cert.ReferenceIdeal.main_arg1) = V (Proc.devRef .tc Cert.KernelIdeal.main_arg1))
    (h2 : V' (Proc.devRef .tc Cert.ReferenceIdeal.main_arg2) = V (Proc.devRef .tc Cert.KernelIdeal.main_arg2))
    (h3 : V' (Proc.devRef .tc Cert.ReferenceIdeal.main_arg3) = V (Proc.devRef .tc Cert.KernelIdeal.main_arg3))
    (h4 : V' (Proc.devRef .tc Cert.ReferenceIdeal.main_arg4) = V (Proc.devRef .tc Cert.KernelIdeal.main_arg4))
    (h5 : V' (Proc.devRef .tc Cert.ReferenceIdeal.main_arg5) = V (Proc.devRef .tc Cert.KernelIdeal.main_arg5)) :
    after (Cert.ReferenceIdeal.ValueP.ops (F := Ideal)) V' (Proc.devRef .tc Cert.ReferenceIdeal.main_v98)
      = after Cert.KernelIdeal.Gen.hostOps2 (Cert.KernelIdeal.Fold.dot1.result (after Cert.KernelIdeal.Gen.hostOps1_4 (after Cert.KernelIdeal.Gen.hostOps1_3 (after Cert.KernelIdeal.Gen.hostOps1_2 (after Cert.KernelIdeal.Gen.hostOps1_1 (after Cert.KernelIdeal.Gen.hostOps1
        (Cert.KernelIdeal.Fold.dot0.result (after Cert.KernelIdeal.Gen.hostOps0_2 (after Cert.KernelIdeal.Gen.hostOps0_1 (after Cert.KernelIdeal.Gen.hostOps0 V)))))))))) (Proc.devRef .tc Cert.KernelIdeal.main_v98) := by
  read_fold
  simp only [h0, h1, h2, h3, h4, h5]
  rfl

end Cert.Bridge

end
-- ==== Proof.lean ====
/-
  A two-layer graph convolution: out = Â·relu(Â·(x·W1) + b1)·W2 + b2, where Â gathers the rows of its operand at the edge
  sources (with a self-loop per node), scales row e by dinv[src e]·dinv[dst e] (dinv the inverse square root of the
  in-degree, counted with the self-loop), and sums the scaled rows at the edge targets.

  The kernel's program and the reference are the same line of host operations except for the two dense products x·W1 and
  h·W2. The reference computes each with one `dot_general`; the kernel with a grid of ten row blocks, each block narrowing
  its operands to bf16 and multiplying them into a zero accumulator. Over the extended reals narrowing is the identity and
  a sum has no order, so entry (p, q) of either is the sum over k of left (p, k) · right (k, q): the matrix product
  (Region0Value, Region1Value). Hence on the buffers each region acts as the reference's `dot_general` does, the fold of
  the kernel's segments is the fold of one line of host operations (KernelFold), and read at the result buffer that line
  and the reference's are one term of the argument arrays (Bridge). No step uses distributivity or cancels anything, so
  the precondition (finite inputs) is never opened.

  The frames of the two kernel programs are the generated ones; the reference's frame is its run with the result dropped.
  The idealization rewrote no operation, so `preserves` has nothing to show.
-/
import proofs.«176146_j61692910240068_1_alg».proof.Defs
import proofs.«176146_j61692910240068_1_alg».proof.Proof.Gen.Kernel
import proofs.«176146_j61692910240068_1_alg».proof.Proof.Gen.Kernel.Skeleton
import proofs.«176146_j61692910240068_1_alg».proof.Proof.Gen.Kernel.Launch
import proofs.«176146_j61692910240068_1_alg».proof.Proof.Gen.Kernel.Points
import proofs.«176146_j61692910240068_1_alg».proof.Proof.Gen.Kernel.Frame
import proofs.«176146_j61692910240068_1_alg».proof.Proof.Gen.KernelIdeal
import proofs.«176146_j61692910240068_1_alg».proof.Proof.Gen.KernelIdeal.Skeleton
import proofs.«176146_j61692910240068_1_alg».proof.Proof.Gen.KernelIdeal.Launch
import proofs.«176146_j61692910240068_1_alg».proof.Proof.Gen.KernelIdeal.Points
import proofs.«176146_j61692910240068_1_alg».proof.Proof.Gen.KernelIdeal.Frame
import proofs.«176146_j61692910240068_1_alg».proof.Proof.Gen.ReferenceIdeal
import proofs.«176146_j61692910240068_1_alg».proof.Proof.Gen.Pre_finite_inputs
import proofs.«176146_j61692910240068_1_alg».proof.Proof.KernelRun
import proofs.«176146_j61692910240068_1_alg».proof.Proof.KernelFold
import proofs.«176146_j61692910240068_1_alg».proof.Proof.RefRunP
import proofs.«176146_j61692910240068_1_alg».proof.Proof.RefArgs
import proofs.«176146_j61692910240068_1_alg».proof.Proof.Bridge
import Idealize.ShloMosaic.Adequacy
import Idealize.ShloMosaic.Init

noncomputable section

namespace Cert.Proof

open Idealize.ShloMosaic Idealize.SL.Sem

/-- The reference runs and leaves its arguments alone: no operation of its line writes an argument buffer. -/
theorem frame_reference : Cert.frame_ReferenceIdeal := fun m ρ _ =>
  (θ_run Cert.ReferenceIdeal.defs _ _).mono (fun _ h c =>
    ⟨(h c _).trans (Cert.ReferenceIdeal.Args.kept0 _), (h c _).trans (Cert.ReferenceIdeal.Args.kept1 _),
     (h c _).trans (Cert.ReferenceIdeal.Args.kept2 _), (h c _).trans (Cert.ReferenceIdeal.Args.kept3 _),
     (h c _).trans (Cert.ReferenceIdeal.Args.kept4 _), (h c _).trans (Cert.ReferenceIdeal.Args.kept5 _)⟩)
    (Cert.ReferenceIdeal.ValueP.run_after (F := Ideal) m ρ)

/-- Over the extended reals, from memories that agree on the arguments, both programs run and end with the same result:
    the kernel's is the end of its segments' fold, which is the folded host line read at the result buffer, which is the
    reference's line read there. -/
theorem algebraic : Cert.algebraic_KernelIdeal_ReferenceIdeal := by
  intro m ρ m' ρ' _ hagree
  refine ⟨fun c => Cert.KernelIdeal.Gen.W11 m ρ c (Proc.devRef .tc Cert.KernelIdeal.main_v98),
    Cert.KernelIdeal.Whole.run (F := Ideal) m ρ, ?_⟩
  refine (θ_run Cert.ReferenceIdeal.defs _ _).mono (fun _ h c =>
    ⟨(h c _).trans ((Cert.Bridge.same_result _ _ (hagree c).1 (hagree c).2.1 (hagree c).2.2.1 (hagree c).2.2.2.1 (hagree c).2.2.2.2.1 (hagree c).2.2.2.2.2).trans
        (congrFun (Cert.KernelIdeal.Fold.folded m ρ c) _).symm),
     (h c _).trans (Cert.ReferenceIdeal.Args.kept0 _), (h c _).trans (Cert.ReferenceIdeal.Args.kept1 _),
     (h c _).trans (Cert.ReferenceIdeal.Args.kept2 _), (h c _).trans (Cert.ReferenceIdeal.Args.kept3 _),
     (h c _).trans (Cert.ReferenceIdeal.Args.kept4 _), (h c _).trans (Cert.ReferenceIdeal.Args.kept5 _)⟩)
    (Cert.ReferenceIdeal.ValueP.run_after (F := Ideal) m' ρ')

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference, trivial, algebraic⟩

end Cert.Proof

end
